-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S129 : Shape := ⟨1, ![129]⟩
abbrev S16x64 : Shape := ⟨2, ![16, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x16 .f32) (main_arg1 : IVec S2x1600000 32) (main_arg2 : IVec S129 32) (main_arg3 : FVec F S16x64 .f32) (main_arg4 : FVec F S64 .f32) (main_arg5 : FVec F S64x128 .f32) (main_arg6 : FVec F S128 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_v13 main_v16
-- ==== Kernel.lean ====
abbrev S100000x16 : Shape := ⟨2, ![100000, 16]⟩
abbrev S2x1600000 : Shape := ⟨2, ![2, 1600000]⟩
abbrev S129 : Shape := ⟨1, ![129]⟩
abbrev S16x64 : Shape := ⟨2, ![16, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x16 : Shape := ⟨2, ![5000, 16]⟩
abbrev S5000x64 : Shape := ⟨2, ![5000, 64]⟩
abbrev S1700000x64 : Shape := ⟨2, ![1700000, 64]⟩
abbrev S1x64 : Shape := ⟨2, ![1, 64]⟩
abbrev S100000x128 : Shape := ⟨2, ![100000, 128]⟩
abbrev S5000x128 : Shape := ⟨2, ![5000, 128]⟩
abbrev S1700000x128 : Shape := ⟨2, ![1700000, 128]⟩
abbrev S1x128 : Shape := ⟨2, ![1, 128]⟩
abbrev S128x1 : Shape := ⟨2, ![128, 1]⟩
abbrev S128x128 : Shape := ⟨2, ![128, 128]⟩

abbrev nBuf : Space → Nat
  | .hbm => 100
  | .vmem => 10
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S129, .i32⟩
  | .hbm, ⟨3, _⟩ => ⟨S16x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x64, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x64, .f32⟩
  | .hbm, ⟨57, _⟩ => ⟨S1700000x1, .f32⟩
  | .hbm, ⟨58, _⟩ => ⟨S1700000x64, .f32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .hbm, ⟨67, _⟩ => ⟨S_, .f32⟩
  | .hbm, ⟨68, _⟩ => ⟨S100000x64, .f32⟩
  | .hbm, ⟨69, _⟩ => ⟨S100000x64, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S128, .i32⟩
  | .hbm, ⟨91, _⟩ => ⟨S_, .i32⟩
  | .hbm, ⟨92, _⟩ => ⟨S128, .i32⟩
  | .hbm, ⟨93, _⟩ => ⟨S128, .i1⟩
  | .hbm, ⟨94, _⟩ => ⟨S_, .i32⟩
  | .hbm, ⟨95, _⟩ => ⟨S128, .i32⟩
  | .hbm, ⟨96, _⟩ => ⟨S128, .i32⟩
  | .hbm, ⟨97, _⟩ => ⟨S128, .i32⟩
  | .hbm, ⟨98, _⟩ => ⟨S128x1, .i32⟩
  | .hbm, ⟨99, _⟩ => ⟨S128x128, .f32⟩
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S5000x128, .f32⟩
  | .local _ .vmem, ⟨9, _⟩ => ⟨S5000x128, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S129_S128_0 : S129.Slices ![0] S128
  bcast_S_S128 : S_.BroadcastsInDim S128 (![] : Fin 0 → Fin S128.rank)
  bcast_S128_S128x1_0 : S128.BroadcastsInDim S128x1 (![0] : Fin 1 → Fin S128x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x16_S16x64_S5000x64_1_0_0_1_n_n_wf : DotDims.WF S5000x16 S16x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S128x1_S128x128_1_0_n_n_0_1_1128_wf : GatherDims.WF S100000x128 S128x1 S128x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S128x1_S128x128_1_0_n_n_0_1_1128 : GatherDims S100000x128 S128x1 S128x128 where
  offsetDims := [1]
  collapsedSliceDims := [0]
  operandBatchingDims := []
  startIndicesBatchingDims := []
  startIndexMap := [0]
  indexVectorDim := 1
  sliceSizes := ![1, 128]
  wf := gather_S100000x128_S128x1_S128x128_1_0_n_n_0_1_1128_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S129 : Shape := ⟨1, ![129]⟩
abbrev S16x64 : Shape := ⟨2, ![16, 64]⟩
abbrev S64 : Shape := ⟨1, ![64]⟩
abbrev S64x128 : Shape := ⟨2, ![64, 128]⟩
abbrev S128 : Shape := ⟨1, ![128]⟩
abbrev S1x1600000 : Shape := ⟨2, ![1, 1600000]⟩
abbrev S1600000 : Shape := ⟨1, ![1600000]⟩
abbrev S100000x64 : Shape := ⟨2, ![100000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x128 : Shape := ⟨2, ![100000, 128]⟩
abbrev S1700000x128 : Shape := ⟨2, ![1700000, 128]⟩
abbrev S1x128 : Shape := ⟨2, ![1, 128]⟩
abbrev S128x1 : Shape := ⟨2, ![128, 1]⟩
abbrev S128x128 : Shape := ⟨2, ![128, 128]⟩

abbrev nBuf : Space → Nat
  | .hbm => 136
  | .vmem => 0
  | .smem => 0
  | _ => 0

abbrev hbmTy0_0 (i : Nat) : BufTy := match i % 128 with
  | 0 => ⟨S100000x16, .f32⟩
  | 1 => ⟨S2x1600000, .i32⟩
  | 2 => ⟨S129, .i32⟩
  | 3 => ⟨S16x64, .f32⟩
  | 4 => ⟨S64, .f32⟩
  | 5 => ⟨S64x128, .f32⟩
  | 6 => ⟨S128, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x128, .f32⟩
  | 71 => ⟨S100000, .i32⟩
  | 72 => ⟨S1700000, .i32⟩
  | 73 => ⟨S1700000, .i32⟩
  | 74 => ⟨S_, .f32⟩
  | 75 => ⟨S1700000, .f32⟩
  | 76 => ⟨S_, .f32⟩
  | 77 => ⟨S100000, .f32⟩
  | 78 => ⟨S1700000x1, .i32⟩
  | 79 => ⟨S100000, .f32⟩
  | 80 => ⟨S_, .f32⟩
  | 81 => ⟨S100000, .f32⟩
  | 82 => ⟨S100000, .i1⟩
  | 83 => ⟨S100000, .f32⟩
  | 84 => ⟨S_, .f32⟩
  | 85 => ⟨S_, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S100000x128, .f32⟩
  | 125 => ⟨S100000x128, .f32⟩
  | 126 => ⟨S128, .i32⟩
  | 127 => ⟨S_, .i32⟩
  | _ => ⟨S100000x16, .f32⟩

abbrev hbmTy0_1 (i : Nat) : BufTy := match i % 128 with
  | 0 => ⟨S128, .i32⟩
  | 1 => ⟨S128, .i1⟩
  | 2 => ⟨S_, .i32⟩
  | 3 => ⟨S128, .i32⟩
  | 4 => ⟨S128, .i32⟩
  | 5 => ⟨S128, .i32⟩
  | 6 => ⟨S128x1, .i32⟩
  | 7 => ⟨S128x128, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_20 : Ref sig .tc := ⟨.hbm, 127, rfl⟩
abbrev main_v92 : Ref sig .tc := ⟨.hbm, 128, rfl⟩
abbrev main_v93 : Ref sig .tc := ⟨.hbm, 129, rfl⟩
abbrev main_c_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S129_S128_0 : S129.Slices ![0] S128
  bcast_S_S128 : S_.BroadcastsInDim S128 (![] : Fin 0 → Fin S128.rank)
  bcast_S128_S128x1_0 : S128.BroadcastsInDim S128x1 (![0] : Fin 1 → Fin S128x1.rank)
  dot_S100000x16_S16x64_S100000x64_1_0_0_1_n_n_wf : DotDims.WF S100000x16 S16x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S128x1_S128x128_1_0_n_n_0_1_1128_wf : GatherDims.WF S100000x128 S128x1 S128x128 [1] [0] [] [0] [] 1 ![1, 128]

variable [Facts₀]

def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S128x1_S128x128_1_0_n_n_0_1_1128 : GatherDims S100000x128 S128x1 S128x128 where
  offsetDims := [1]
  collapsedSliceDims := [0]
  operandBatchingDims := []
  startIndicesBatchingDims := []
  startIndexMap := [0]
  indexVectorDim := 1
  sliceSizes := ![1, 128]
  wf := gather_S100000x128_S128x1_S128x128_1_0_n_n_0_1_1128_wf

class Facts : Prop extends Facts₀ where

variable [Facts]
-- ==== Proof.MatProd.lean ====
/-
  The product of two matrices over the extended reals, entry by entry: what both programs' dense layers compute.
  The kernel computes it in blocks of rows (each grid point multiplies 5000 rows of the left factor by the whole
  right factor); the reference computes it whole. Over the extended reals both are the same finite sum, entry by
  entry, so no fact about the order or grouping of additions is needed.
-/
import Idealize.ShloMosaic.PureOps.Ideal
import Idealize.ShloMosaic.Lib.ValueIdx

noncomputable section

namespace Cert.Gcn

open Idealize.ShloMosaic Idealize.ShloMosaic.ValueIdx

/-- The matrix product of `x : [n,k]` and `w : [k,j]` over the extended reals: entry `(r,q)` is `∑ l, x(r,l) · w(l,q)`. -/
def matProd {n k j : Nat} (x : FVec Ideal ⟨2, ![n, k]⟩ .f32) (w : FVec Ideal ⟨2, ![k, j]⟩ .f32) :
    FVec Ideal ⟨2, ![n, j]⟩ .f32 :=
  fun i => ∑ l : Fin k, x (ix2 ⟨(i 0).val, idx2_lt0 i⟩ l) * w (ix2 l ⟨(i 1).val, idx2_lt1 i⟩)

/-- The product read at an entry given by its two coordinates. -/
theorem matProd_apply {n k j : Nat} (x : FVec Ideal ⟨2, ![n, k]⟩ .f32) (w : FVec Ideal ⟨2, ![k, j]⟩ .f32)
    (r : Fin n) (q : Fin j) : matProd x w (ix2 r q) = ∑ l : Fin k, x (ix2 r l) * w (ix2 l q) := rfl

end Cert.Gcn

end
-- ==== Proof.RefDense.lean ====
/-
  The reference's two dense layers are matrix products: the host's dot_general contracting the left factor's
  columns with the right factor's rows is, over the extended reals, the finite sum Σ_l x(r,l)·w(l,q) at each
  entry (r,q).
-/
import proofs.«131814_j85272280695317_2_alg».proof.Proof.RefRead
import proofs.«131814_j85272280695317_2_alg».proof.Proof.MatProd

noncomputable section

namespace Cert.ReferenceIdeal.Dense

open Cert.ReferenceIdeal Cert.ReferenceIdeal.ReadP Idealize.ShloMosaic Idealize.ShloMosaic.ValueIdx

variable [Cert.ReferenceIdeal.Facts]

/-- The first layer's linear map x·W1, entry by entry. -/
theorem dense_one (x0 : (⟨S100000x16, .f32⟩ : BufTy).Contents (Elt Ideal)) (x3 : (⟨S16x64, .f32⟩ : BufTy).Contents (Elt Ideal)) :
    val_main_v4 (F := Ideal) x0 x3 = Cert.Gcn.matProd x0 x3 := by
  funext i
  rw [val_main_v4_apply]
  unfold Cert.Gcn.matProd
  refine Finset.sum_congr rfl fun k _ => ?_
  have el : lidx_main_v4 i k = ix2 ⟨(i 0).val, idx2_lt0 i⟩ k :=
    funext fun a => Fin.ext (by match a with | ⟨0, _⟩ => rfl | ⟨1, _⟩ => rfl)
  have er : ridx_main_v4 i k = ix2 k ⟨(i 1).val, idx2_lt1 i⟩ :=
    funext fun a => Fin.ext (by match a with | ⟨0, _⟩ => rfl | ⟨1, _⟩ => rfl)
  rw [el, er]

/-- The second layer's linear map h·W2, entry by entry, h the first layer's rectified output. -/
theorem dense_two (x0 : (⟨S100000x16, .f32⟩ : BufTy).Contents (Elt Ideal)) (x1 : (⟨S2x1600000, .i32⟩ : BufTy).Contents (Elt Ideal))
    (x3 : (⟨S16x64, .f32⟩ : BufTy).Contents (Elt Ideal)) (x4 : (⟨S64, .f32⟩ : BufTy).Contents (Elt Ideal))
    (x5 : (⟨S64x128, .f32⟩ : BufTy).Contents (Elt Ideal)) :
    val_main_v48 (F := Ideal) x0 x1 x3 x4 x5 = Cert.Gcn.matProd (val_main_v47 (F := Ideal) x0 x1 x3 x4) x5 := by
  funext i
  rw [val_main_v48_apply]
  unfold Cert.Gcn.matProd
  refine Finset.sum_congr rfl fun k _ => ?_
  have el : lidx_main_v48 i k = ix2 ⟨(i 0).val, idx2_lt0 i⟩ k :=
    funext fun a => Fin.ext (by match a with | ⟨0, _⟩ => rfl | ⟨1, _⟩ => rfl)
  have er : ridx_main_v48 i k = ix2 k ⟨(i 1).val, idx2_lt1 i⟩ :=
    funext fun a => Fin.ext (by match a with | ⟨0, _⟩ => rfl | ⟨1, _⟩ => rfl)
  rw [el, er]

end Cert.ReferenceIdeal.Dense

end
-- ==== Proof.DenseOne.lean ====
/-
  The first dense layer of the kernel, read as a whole-array fact.

  The layer multiplies the array `x` of 100000 rows and 16 columns by the 16 × 64 matrix `W`. The grid has 20 points;
  point `t` takes the block of rows `5000·t … 5000·t + 4999` of `x` and the whole of `W`, rounds both to bf16 (the
  identity over the extended reals), multiplies them into a zero accumulator, and writes the 5000 × 64 product back as
  rows `5000·t … 5000·t + 4999` of the output array.

  Entry `(p, q)` of the block product is `∑ l, x(5000·t + p, l) · W(l, q)`: it depends on one row of `x` and one column
  of `W` only, so it is entry `(5000·t + p, q)` of the whole product `x · W`. Every row `r` of the output lies in the
  block of the point `r / 5000`, so the 20 blocks cover the array and after the region it holds `x · W` entry by
  entry. No law about the order or grouping of additions is needed: each entry is the same finite sum on both sides.
-/
import proofs.«131814_j85272280695317_2_alg».proof.Proof.Gen.KernelIdeal.Frame
import proofs.«131814_j85272280695317_2_alg».proof.Proof.MatProd
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)

/-- Left operand's index of the product, row coordinate: the output entry's row. -/
theorem lhs0_row (i : S5000x64.Idx) (k : dot_S5000x16_S16x64_S5000x64_1_0_0_1_n_n.contr.Idx) :
    (dot_S5000x16_S16x64_S5000x64_1_0_0_1_n_n.lhsIdx i k 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl
/-- Left operand's index, column coordinate: the position in the contraction. -/
theorem lhs0_col (i : S5000x64.Idx) (k : dot_S5000x16_S16x64_S5000x64_1_0_0_1_n_n.contr.Idx) :
    (dot_S5000x16_S16x64_S5000x64_1_0_0_1_n_n.lhsIdx i k 1).val = (k ⟨0, by decide⟩).val :=
  dot_S5000x16_S16x64_S5000x64_1_0_0_1_n_n.lhsIdx_val_of_single rfl i k
/-- Right operand's index, row coordinate: the position in the contraction. -/
theorem rhs0_row (i : S5000x64.Idx) (k : dot_S5000x16_S16x64_S5000x64_1_0_0_1_n_n.contr.Idx) :
    (dot_S5000x16_S16x64_S5000x64_1_0_0_1_n_n.rhsIdx i k 0).val = (k ⟨0, by decide⟩).val :=
  dot_S5000x16_S16x64_S5000x64_1_0_0_1_n_n.rhsIdx_val_of_single rfl i k
/-- Right operand's index, column coordinate: the output entry's column. -/
theorem rhs0_col (i : S5000x64.Idx) (k : dot_S5000x16_S16x64_S5000x64_1_0_0_1_n_n.contr.Idx) :
    (dot_S5000x16_S16x64_S5000x64_1_0_0_1_n_n.rhsIdx i k 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The body's value on one block, entry by entry: rounding to bf16 is the identity over the extended reals and
    the accumulator is zero, so entry `(p, q)` is the sum over `l` of the left block at `(p, l)` times the right
    block at `(l, q)`. -/
theorem pay0_apply (xb : Vec Ideal S5000x16 .f32) (wb : Vec Ideal S16x64 .f32) (p : Fin 5000) (q : Fin 64) :
    Gen.k0_pay1 (F := Ideal) xb wb (ix2 p q) = ∑ l : Fin 16, xb (ix2 p l) * wb (ix2 l q) := by
  unfold Gen.k0_pay1
  refine (Ideal.matmul_constant_zero_apply dot_S5000x16_S16x64_S5000x64_1_0_0_1_n_n none _ _ (ix2 p q)).trans ?_
  rw [← Equiv.sum_comp (contrEquiv1 dot_S5000x16_S16x64_S5000x64_1_0_0_1_n_n 16 rfl rfl).symm]
  refine Finset.sum_congr rfl fun l _ => ?_
  have hl := contrEquiv1_symm_val dot_S5000x16_S16x64_S5000x64_1_0_0_1_n_n 16 rfl rfl l
  have el : dot_S5000x16_S16x64_S5000x64_1_0_0_1_n_n.lhsIdx (ix2 p q) ((contrEquiv1 dot_S5000x16_S16x64_S5000x64_1_0_0_1_n_n 16 rfl rfl).symm l) = ix2 p l := funext fun a => Fin.ext (by
    match a with
    | ⟨0, _⟩ => exact lhs0_row _ _
    | ⟨1, _⟩ => exact (lhs0_col _ _).trans hl)
  have er : dot_S5000x16_S16x64_S5000x64_1_0_0_1_n_n.rhsIdx (ix2 p q) ((contrEquiv1 dot_S5000x16_S16x64_S5000x64_1_0_0_1_n_n 16 rfl rfl).symm l) = ix2 l q := funext fun a => Fin.ext (by
    match a with
    | ⟨0, _⟩ => exact (rhs0_row _ _).trans hl
    | ⟨1, _⟩ => exact rhs0_col _ _)
  rw [el, er]
  rfl

/-- An entry of a block product sits in the whole product at the block's place: when the left block is the rows
    `b, b+1, …` of `X` (all 16 columns) and the right block is all of `W`, entry `(p, q)` of the block product is
    entry `(b + p, q)` of `X · W`: the same sum over the 16 entries of row `b + p` of `X` against column `q` of `W`. -/
theorem block_entry0 (X : FVec Ideal S100000x16 .f32) (W : FVec Ideal S16x64 .f32)
    (xb : Vec Ideal S5000x16 .f32) (wb : Vec Ideal S16x64 .f32)
    (e0 : S5000x16.Idx → S100000x16.Idx) (e1 : S16x64.Idx → S16x64.Idx)
    (i : S100000x64.Idx) (b : Nat) (j : S5000x64.Idx)
    (hx : ∀ y, xb y = X (e0 y)) (hw : ∀ y, wb y = W (e1 y))
    (h00 : ∀ y, (e0 y 0).val = b + (y 0).val) (h01 : ∀ y, (e0 y 1).val = (y 1).val)
    (h10 : ∀ y, (e1 y 0).val = (y 0).val) (h11 : ∀ y, (e1 y 1).val = (y 1).val)
    (hi0 : (i 0).val = b + (j 0).val) (hi1 : (i 1).val = (j 1).val) :
    Gen.k0_pay1 (F := Ideal) xb wb j = Cert.Gcn.matProd X W i := by
  obtain ⟨p, q, rfl⟩ : ∃ (p : Fin 5000) (q : Fin 64), j = ix2 p q := ⟨j 0, j 1, eq_ix2 j⟩
  rw [pay0_apply]
  show _ = ∑ l : Fin 16, X (ix2 ⟨(i 0).val, idx2_lt0 i⟩ l) * W (ix2 l ⟨(i 1).val, idx2_lt1 i⟩)
  refine Finset.sum_congr rfl fun l _ => ?_
  have a0 : e0 (ix2 p l) = ix2 ⟨(i 0).val, idx2_lt0 i⟩ l := funext fun a => Fin.ext (by
    match a with
    | ⟨0, _⟩ => exact (h00 _).trans hi0.symm
    | ⟨1, _⟩ => exact h01 _)
  have a1 : e1 (ix2 l q) = ix2 l ⟨(i 1).val, idx2_lt1 i⟩ := funext fun a => Fin.ext (by
    match a with
    | ⟨0, _⟩ => exact h10 _
    | ⟨1, _⟩ => exact (h11 _).trans hi1.symm)
  rw [hx, hw, a0, a1]

/-- The zero offsets of the body's whole-block accesses, as a constant function. -/
theorem hz0 : (![0, 0] : Fin 2 → Nat) = fun _ => 0 := funext fun a => by fin_cases a <;> rfl

/-- The block indices at grid point `t`: the left factor's and the output's blocks are at `(t, 0)` (rows
    `5000·t … 5000·t + 4999`), the right factor's block is at `(0, 0)` (the whole matrix). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the whole product: the body multiplies rows
    `5000·t … 5000·t + 4999` of the left factor by the whole right factor, and an entry of that block product is
    the entry of the whole product in the same row of the array. -/
theorem flushed0_eq (V : (c : Dev nD) → (b : Ref sig .tc) → Buf (Elt Ideal) ((c : Thread nD τ).loc b)) (c : Dev nD) (t : Fin cfg0.N) :
    (Gen.dat0 (F := Ideal) V c).flushed 2 t
      = ((cfg0.win 2).blk t).view.read (Elt Ideal) (Cert.Gcn.matProd (V c main_arg0 : FVec Ideal S100000x16 .f32) (V c main_arg3 : FVec Ideal S16x64 .f32)) := by
  show (cfg0.win 2).cut (grid0.coords t) ((Gen.dat0 V c).after 2 t) = _
  rw [Gen.after0_2]
  unfold Gen.out0_2
  rw [View.canon_unit_zero hz0]
  simp only [View.ld_unit_zero (S := S5000x16) hz0, View.ld_unit_zero (S := S16x64) hz0]
  obtain ⟨f00, f01, f10, f11, f20, f21⟩ := idx_facts0 t
  funext j
  refine block_entry0 (V c main_arg0) (V c main_arg3) (Gen.iblk0 V c 0 t) (Gen.iblk0 V c 1 t)
    (fun y => ((cfg0.win 0).blk t).view.emb y) (fun y => ((cfg0.win 1).blk t).view.emb y)
    (((cfg0.win 2).blk t).view.emb j) (t.val * 5000) j
    (fun y => rfl) (fun y => rfl) (fun y => ?_) (fun y => ?_) (fun y => ?_) (fun y => ?_) ?_ ?_
  · show win0_0.index t (0 : Fin 2) * 5000 + 1 * (y 0).val = t.val * 5000 + (y 0).val
    rw [f00]; omega
  · show win0_0.index t (1 : Fin 2) * 16 + 1 * (y 1).val = (y 1).val
    rw [f01]; omega
  · show win0_1.index t (0 : Fin 2) * 16 + 1 * (y 0).val = (y 0).val
    rw [f10]; omega
  · show win0_1.index t (1 : Fin 2) * 64 + 1 * (y 1).val = (y 1).val
    rw [f11]; omega
  · show win0_2.index t (0 : Fin 2) * 5000 + 1 * (j 0).val = t.val * 5000 + (j 0).val
    rw [f20]; omega
  · show win0_2.index t (1 : Fin 2) * 64 + 1 * (j 1).val = (j 1).val
    rw [f21]; omega

/-- An index of the output array is in grid point `t`'s block exactly when each coordinate is in the block's range
    on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The 20 blocks of 5000 rows tile the 100000 rows: row `r` is in the block of grid point `r / 5000`, and every
    grid point writes its block back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := Gen.N_0
  obtain ⟨t, ht⟩ : ∃ t : Fin cfg0.N, t.val = (i 0).val / 5000 :=
    ⟨⟨(i 0).val / 5000, by show (i 0).val / 5000 < grid0.N; rw [hN]; omega⟩, rfl⟩
  obtain ⟨-, -, -, -, f20, f21⟩ := idx_facts0 t
  refine ⟨t, Gen.flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [f20, ht]; omega
  | ⟨1, _⟩ =>
    show win0_2.index t (1 : Fin 2) * 64 ≤ (i 1).val ∧ (i 1).val < win0_2.index t (1 : Fin 2) * 64 + 64
    rw [f21]; omega

/-- After the first dense layer's region the output array holds the whole product of the two input arrays as the
    region finds them: each grid point writes one block of it, and the blocks cover the array. -/
theorem region0_array (V : (c : Dev nD) → (b : Ref sig .tc) → Buf (Elt Ideal) ((c : Thread nD τ).loc b)) (c : Dev nD) :
    (Gen.dat0 (F := Ideal) V c).arrAt 2 cfg0.N = Cert.Gcn.matProd (V c main_arg0) (V c main_arg3) :=
  (Gen.dat0 (F := Ideal) V c).arrAt_eq_of_cover 2 (Cert.Gcn.matProd (V c main_arg0 : FVec Ideal S100000x16 .f32) (V c main_arg3 : FVec Ideal S16x64 .f32))
    (fun t _ => flushed0_eq V c t) cover0

end Cert.KernelIdeal.Dense

end
-- ==== Proof.KernelEdges.lean ====
/-
  The idealized kernel up to the end of its first dense layer, stated in the reference's own vocabulary.

  With the edge list e (sources and targets, a self loop appended for every node), deg(v) the number of edges into v,
  dis = deg^(-1/2) where deg > 0 and 0 elsewhere, the edge weight is norm(j) = dis(src j) · dis(dst j). The kernel
  computes src, dst and norm once, in three stretches of host operations before its first region: the edge lists and the
  degrees' two readings (is it positive; its inverse square root), then the selection between them, then the two gathers
  of dis and their product. The reference applies the same operations to the same values, so each of these values is the
  reference's stage of the same name, by unfolding both. The first region then leaves the product x·W1, which is the
  reference's first stage entry by entry.
-/
import proofs.«131814_j85272280695317_2_alg».proof.Proof.Gen.KernelIdeal.Frame
import proofs.«131814_j85272280695317_2_alg».proof.Proof.RefRead
import proofs.«131814_j85272280695317_2_alg».proof.Proof.RefDense
import proofs.«131814_j85272280695317_2_alg».proof.Proof.DenseOne
import Idealize.ShloMosaic.Lib.StableHlo.Run

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## Reading and writing a buffer at its own type

A called function's operations read and write each buffer through a transport along "this buffer's type is the value's
type"; both types are the same literal, so the transport moves nothing. -/

/-- Written through the transport and read back through it: the value. -/
theorem ofBuf_toBuf {T : BufTy} (x : TRef sig T) (v : T.Contents (Elt Ideal)) : x.ofBuf (x.toBuf v) = v := by
  obtain ⟨r, h, _, _⟩ := x; subst h; rfl

theorem ofBuf_pos (h1 h2 h3) (v : (⟨S100000, .i1⟩ : BufTy).Contents (Elt Ideal)) :
    (TRef.of (sig := sig) (T := ⟨S100000, .i1⟩) main_v12 h1 h2 h3).ofBuf (Val := Elt Ideal) v = v := rfl
theorem ofBuf_rsqrt (h1 h2 h3) (v : (⟨S100000, .f32⟩ : BufTy).Contents (Elt Ideal)) :
    (TRef.of (sig := sig) (T := ⟨S100000, .f32⟩) main_v13 h1 h2 h3).ofBuf (Val := Elt Ideal) v = v := rfl
theorem ofBuf_zero (h1 h2 h3) (v : (⟨S_, .f32⟩ : BufTy).Contents (Elt Ideal)) :
    (TRef.of (sig := sig) (T := ⟨S_, .f32⟩) main_cst_2 h1 h2 h3).ofBuf (Val := Elt Ideal) v = v := rfl
theorem toBuf_dis (h1 h2 h3) (v : (⟨S100000, .f32⟩ : BufTy).Contents (Elt Ideal)) :
    (TRef.of (sig := sig) (T := ⟨S100000, .f32⟩) main_v14 h1 h2 h3).toBuf (Val := Elt Ideal) v = v := rfl
theorem ofBuf_pre (h1 h2 h3) (v : (⟨S100000x64, .f32⟩ : BufTy).Contents (Elt Ideal)) :
    (TRef.of (sig := sig) (T := ⟨S100000x64, .f32⟩) main_v46 h1 h2 h3).ofBuf (Val := Elt Ideal) v = v := rfl
theorem toBuf_rect (h1 h2 h3) (v : (⟨S100000x64, .f32⟩ : BufTy).Contents (Elt Ideal)) :
    (TRef.of (sig := sig) (T := ⟨S100000x64, .f32⟩) main_v47 h1 h2 h3).toBuf (Val := Elt Ideal) v = v := rfl

/-! ## The first region's entry: the arguments as launched, the edge lists and the edge weights

Three stretches of host operations: the degrees' two readings (positive? inverse square root), then their selection,
then the two gathers and the product. -/

theorem entry0_x : W3 m ρ c (Proc.devRef .tc main_arg0) = (m ((c.tc : Thread nD τ).loc main_arg0)) := by
  dsimp only [W3, W2, W1, hostOps0, hostOps0_1, hostOps0_2]; after_results
theorem entry0_w1 : W3 m ρ c (Proc.devRef .tc main_arg3) = (m ((c.tc : Thread nD τ).loc main_arg3)) := by
  dsimp only [W3, W2, W1, hostOps0, hostOps0_1, hostOps0_2]; after_results
theorem entry0_b1 : W3 m ρ c (Proc.devRef .tc main_arg4) = (m ((c.tc : Thread nD τ).loc main_arg4)) := by
  dsimp only [W3, W2, W1, hostOps0, hostOps0_1, hostOps0_2]; after_results
theorem entry0_w2 : W3 m ρ c (Proc.devRef .tc main_arg5) = (m ((c.tc : Thread nD τ).loc main_arg5)) := by
  dsimp only [W3, W2, W1, hostOps0, hostOps0_1, hostOps0_2]; after_results
theorem entry0_b2 : W3 m ρ c (Proc.devRef .tc main_arg6) = (m ((c.tc : Thread nD τ).loc main_arg6)) := by
  dsimp only [W3, W2, W1, hostOps0, hostOps0_1, hostOps0_2]; after_results
theorem entry0_ptr : W3 m ρ c (Proc.devRef .tc main_arg2) = (m ((c.tc : Thread nD τ).loc main_arg2)) := by
  dsimp only [W3, W2, W1, hostOps0, hostOps0_1, hostOps0_2]; after_results

/-- The sources, a self loop appended per node. -/
theorem entry0_src : W3 m ρ c (Proc.devRef .tc main_v5)
    = Cert.ReferenceIdeal.ReadP.val_main_v6 (F := Ideal) (m ((c.tc : Thread nD τ).loc main_arg1)) := by
  dsimp only [W3, W2, W1, hostOps0, hostOps0_1, hostOps0_2]; after_results; rfl
/-- The targets, a self loop appended per node. -/
theorem entry0_dst : W3 m ρ c (Proc.devRef .tc main_v6)
    = Cert.ReferenceIdeal.ReadP.val_main_v7 (F := Ideal) (m ((c.tc : Thread nD τ).loc main_arg1)) := by
  dsimp only [W3, W2, W1, hostOps0, hostOps0_1, hostOps0_2]; after_results; rfl

/-- After the first stretch: where the degree (the number of edges into a node, self loop included) is positive. -/
theorem deg_pos : W1 m ρ c (Proc.devRef .tc main_v12) = Cert.ReferenceIdeal.ReadP.val_main_v13 (F := Ideal) (m ((c.tc : Thread nD τ).loc main_arg1)) := by
  dsimp only [W1, hostOps0]; after_results; rfl
/-- After the first stretch: the degree's inverse square root. -/
theorem deg_rsqrt : W1 m ρ c (Proc.devRef .tc main_v13) = Cert.ReferenceIdeal.ReadP.val_main_v14 (F := Ideal) (m ((c.tc : Thread nD τ).loc main_arg1)) := by
  dsimp only [W1, hostOps0]; after_results; rfl
/-- After the first stretch: the constant zero the selection falls back to. -/
theorem deg_zero : W1 m ρ c (Proc.devRef .tc main_cst_2) = Cert.ReferenceIdeal.ReadP.val_main_cst_2 (F := Ideal) := by
  dsimp only [W1, hostOps0]; after_results; rfl

/-- After the second stretch: deg^(-1/2) where the degree is positive, zero elsewhere. -/
theorem dis : W2 m ρ c (Proc.devRef .tc main_v14) = Cert.ReferenceIdeal.ReadP.val_main_v15 (F := Ideal) (m ((c.tc : Thread nD τ).loc main_arg1)) := by
  have h1 := deg_pos m ρ c
  have h2 := deg_rsqrt m ρ c
  have h3 := deg_zero m ρ c
  dsimp only [W2]
  generalize W1 m ρ c = U at h1 h2 h3 ⊢
  dsimp only [hostOps0_1]; after_results
  rw [h1, h2, h3]
  simp only [ofBuf_toBuf, ofBuf_pos, ofBuf_rsqrt, ofBuf_zero, toBuf_dis]
  rfl
theorem dis_src : W2 m ρ c (Proc.devRef .tc main_v5) = Cert.ReferenceIdeal.ReadP.val_main_v6 (F := Ideal) (m ((c.tc : Thread nD τ).loc main_arg1)) := by
  dsimp only [W2, W1, hostOps0, hostOps0_1]; after_results; rfl
theorem dis_dst : W2 m ρ c (Proc.devRef .tc main_v6) = Cert.ReferenceIdeal.ReadP.val_main_v7 (F := Ideal) (m ((c.tc : Thread nD τ).loc main_arg1)) := by
  dsimp only [W2, W1, hostOps0, hostOps0_1]; after_results; rfl

set_option maxHeartbeats 4000000 in
/-- The edge weights dis(src)·dis(dst). -/
theorem entry0_norm : W3 m ρ c (Proc.devRef .tc main_v29)
    = Cert.ReferenceIdeal.ReadP.val_main_v30 (F := Ideal) (m ((c.tc : Thread nD τ).loc main_arg1)) := by
  have h1 := dis m ρ c
  have h2 := dis_src m ρ c
  have h3 := dis_dst m ρ c
  dsimp only [W3]
  generalize W2 m ρ c = U at h1 h2 h3 ⊢
  dsimp only [hostOps0_2]; after_results
  rw [h1, h2, h3]; rfl

/-! ## The first dense layer: the region leaves x·W1, and every other buffer as it was -/

/-- After the first region its output array holds the product x·W1: the reference's first stage. -/
theorem exit0_lin : W4 m ρ c (Proc.devRef .tc main_v30)
    = Cert.ReferenceIdeal.ReadP.val_main_v4 (F := Ideal) (m ((c.tc : Thread nD τ).loc main_arg0)) (m ((c.tc : Thread nD τ).loc main_arg3)) := by
  refine (W4_arr m ρ c 2).trans ?_
  rw [Cert.KernelIdeal.Dense.region0_array, Cert.ReferenceIdeal.Dense.dense_one]
  show Cert.Gcn.matProd (W3 m ρ c (Proc.devRef .tc main_arg0)) (W3 m ρ c (Proc.devRef .tc main_arg3)) = _
  rw [entry0_x, entry0_w1]

theorem exit0_src : W4 m ρ c (Proc.devRef .tc main_v5) = Cert.ReferenceIdeal.ReadP.val_main_v6 (F := Ideal) (m ((c.tc : Thread nD τ).loc main_arg1)) :=
  (W4_of_ne m ρ c main_v5 (by decide)).trans (entry0_src m ρ c)
theorem exit0_dst : W4 m ρ c (Proc.devRef .tc main_v6) = Cert.ReferenceIdeal.ReadP.val_main_v7 (F := Ideal) (m ((c.tc : Thread nD τ).loc main_arg1)) :=
  (W4_of_ne m ρ c main_v6 (by decide)).trans (entry0_dst m ρ c)
theorem exit0_norm : W4 m ρ c (Proc.devRef .tc main_v29) = Cert.ReferenceIdeal.ReadP.val_main_v30 (F := Ideal) (m ((c.tc : Thread nD τ).loc main_arg1)) :=
  (W4_of_ne m ρ c main_v29 (by decide)).trans (entry0_norm m ρ c)
theorem exit0_b1 : W4 m ρ c (Proc.devRef .tc main_arg4) = (m ((c.tc : Thread nD τ).loc main_arg4)) :=
  (W4_of_ne m ρ c main_arg4 (by decide)).trans (entry0_b1 m ρ c)
theorem exit0_w2 : W4 m ρ c (Proc.devRef .tc main_arg5) = (m ((c.tc : Thread nD τ).loc main_arg5)) :=
  (W4_of_ne m ρ c main_arg5 (by decide)).trans (entry0_w2 m ρ c)
theorem exit0_b2 : W4 m ρ c (Proc.devRef .tc main_arg6) = (m ((c.tc : Thread nD τ).loc main_arg6)) :=
  (W4_of_ne m ρ c main_arg6 (by decide)).trans (entry0_b2 m ρ c)
theorem exit0_ptr : W4 m ρ c (Proc.devRef .tc main_arg2) = (m ((c.tc : Thread nD τ).loc main_arg2)) :=
  (W4_of_ne m ρ c main_arg2 (by decide)).trans (entry0_ptr m ρ c)

end Cert.KernelIdeal.GcnValue

end
-- ==== Proof.DenseTwo.lean ====
/-
  The second dense layer of the kernel, read as a whole-array fact.

  The layer multiplies the array `h` of 100000 rows and 64 columns by the 64 × 128 matrix `W`. The grid has 20 points;
  point `t` takes the block of rows `5000·t … 5000·t + 4999` of `h` and the whole of `W`, casts the left block to
  its own shape and rounds both to bf16 (both the identity over the extended reals), multiplies them into a zero
  accumulator, and writes the 5000 × 128 product back as rows `5000·t … 5000·t + 4999` of the output array.

  Entry `(p, q)` of the block product is `∑ l, h(5000·t + p, l) · W(l, q)`: it depends on one row of `h` and one column
  of `W` only, so it is entry `(5000·t + p, q)` of the whole product `h · W`. Every row `r` of the output lies in the
  block of the point `r / 5000`, so the 20 blocks cover the array and after the region it holds `h · W` entry by
  entry. No law about the order or grouping of additions is needed: each entry is the same finite sum on both sides.
-/
import proofs.«131814_j85272280695317_2_alg».proof.Proof.Gen.KernelIdeal.Frame
import proofs.«131814_j85272280695317_2_alg».proof.Proof.MatProd
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.TcCoe Idealize.SL.Sem Idealize.ShloMosaic.ValueIdx
open Idealize.ShloMosaic.Pipeline (Dat)

/-- Left operand's index of the product, row coordinate: the output entry's row. -/
theorem lhs1_row (i : S5000x128.Idx) (k : dot_S5000x64_S64x128_S5000x128_1_0_0_1_n_n.contr.Idx) :
    (dot_S5000x64_S64x128_S5000x128_1_0_0_1_n_n.lhsIdx i k 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- Left operand's index, column coordinate: the position in the contraction. -/
theorem lhs1_col (i : S5000x128.Idx) (k : dot_S5000x64_S64x128_S5000x128_1_0_0_1_n_n.contr.Idx) :
    (dot_S5000x64_S64x128_S5000x128_1_0_0_1_n_n.lhsIdx i k 1).val = (k ⟨0, by decide⟩).val :=
  dot_S5000x64_S64x128_S5000x128_1_0_0_1_n_n.lhsIdx_val_of_single rfl i k
/-- Right operand's index, row coordinate: the position in the contraction. -/
theorem rhs1_row (i : S5000x128.Idx) (k : dot_S5000x64_S64x128_S5000x128_1_0_0_1_n_n.contr.Idx) :
    (dot_S5000x64_S64x128_S5000x128_1_0_0_1_n_n.rhsIdx i k 0).val = (k ⟨0, by decide⟩).val :=
  dot_S5000x64_S64x128_S5000x128_1_0_0_1_n_n.rhsIdx_val_of_single rfl i k
/-- Right operand's index, column coordinate: the output entry's column. -/
theorem rhs1_col (i : S5000x128.Idx) (k : dot_S5000x64_S64x128_S5000x128_1_0_0_1_n_n.contr.Idx) :
    (dot_S5000x64_S64x128_S5000x128_1_0_0_1_n_n.rhsIdx i k 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The body's value on one block, entry by entry: the cast of the left block to its own shape changes nothing,
    rounding to bf16 is the identity over the extended reals and the accumulator is zero, so entry `(p, q)` is the sum over `l` of the left block at `(p, l)` times the right
    block at `(l, q)`. -/
theorem pay1_apply (xb : Vec Ideal S5000x64 .f32) (wb : Vec Ideal S64x128 .f32) (p : Fin 5000) (q : Fin 128) :
    Gen.k1_pay1 (F := Ideal) xb wb (ix2 p q) = ∑ l : Fin 64, xb (ix2 p l) * wb (ix2 l q) := by
  unfold Gen.k1_pay1
  rw [shapeCast_self]
  refine (Ideal.matmul_constant_zero_apply dot_S5000x64_S64x128_S5000x128_1_0_0_1_n_n none _ _ (ix2 p q)).trans ?_
  rw [← Equiv.sum_comp (contrEquiv1 dot_S5000x64_S64x128_S5000x128_1_0_0_1_n_n 64 rfl rfl).symm]
  refine Finset.sum_congr rfl fun l _ => ?_
  have hl := contrEquiv1_symm_val dot_S5000x64_S64x128_S5000x128_1_0_0_1_n_n 64 rfl rfl l
  have el : dot_S5000x64_S64x128_S5000x128_1_0_0_1_n_n.lhsIdx (ix2 p q) ((contrEquiv1 dot_S5000x64_S64x128_S5000x128_1_0_0_1_n_n 64 rfl rfl).symm l) = ix2 p l := funext fun a => Fin.ext (by
    match a with
    | ⟨0, _⟩ => exact lhs1_row _ _
    | ⟨1, _⟩ => exact (lhs1_col _ _).trans hl)
  have er : dot_S5000x64_S64x128_S5000x128_1_0_0_1_n_n.rhsIdx (ix2 p q) ((contrEquiv1 dot_S5000x64_S64x128_S5000x128_1_0_0_1_n_n 64 rfl rfl).symm l) = ix2 l q := funext fun a => Fin.ext (by
    match a with
    | ⟨0, _⟩ => exact (rhs1_row _ _).trans hl
    | ⟨1, _⟩ => exact rhs1_col _ _)
  rw [el, er]
  rfl

/-- An entry of a block product sits in the whole product at the block's place: when the left block is the rows
    `b, b+1, …` of `X` (all 64 columns) and the right block is all of `W`, entry `(p, q)` of the block product is
    entry `(b + p, q)` of `X · W`: the same sum over the 64 entries of row `b + p` of `X` against column `q` of `W`. -/
theorem block_entry1 (X : FVec Ideal S100000x64 .f32) (W : FVec Ideal S64x128 .f32)
    (xb : Vec Ideal S5000x64 .f32) (wb : Vec Ideal S64x128 .f32)
    (e0 : S5000x64.Idx → S100000x64.Idx) (e1 : S64x128.Idx → S64x128.Idx)
    (i : S100000x128.Idx) (b : Nat) (j : S5000x128.Idx)
    (hx : ∀ y, xb y = X (e0 y)) (hw : ∀ y, wb y = W (e1 y))
    (h00 : ∀ y, (e0 y 0).val = b + (y 0).val) (h01 : ∀ y, (e0 y 1).val = (y 1).val)
    (h10 : ∀ y, (e1 y 0).val = (y 0).val) (h11 : ∀ y, (e1 y 1).val = (y 1).val)
    (hi0 : (i 0).val = b + (j 0).val) (hi1 : (i 1).val = (j 1).val) :
    Gen.k1_pay1 (F := Ideal) xb wb j = Cert.Gcn.matProd X W i := by
  obtain ⟨p, q, rfl⟩ : ∃ (p : Fin 5000) (q : Fin 128), j = ix2 p q := ⟨j 0, j 1, eq_ix2 j⟩
  rw [pay1_apply]
  show _ = ∑ l : Fin 64, X (ix2 ⟨(i 0).val, idx2_lt0 i⟩ l) * W (ix2 l ⟨(i 1).val, idx2_lt1 i⟩)
  refine Finset.sum_congr rfl fun l _ => ?_
  have a0 : e0 (ix2 p l) = ix2 ⟨(i 0).val, idx2_lt0 i⟩ l := funext fun a => Fin.ext (by
    match a with
    | ⟨0, _⟩ => exact (h00 _).trans hi0.symm
    | ⟨1, _⟩ => exact h01 _)
  have a1 : e1 (ix2 l q) = ix2 l ⟨(i 1).val, idx2_lt1 i⟩ := funext fun a => Fin.ext (by
    match a with
    | ⟨0, _⟩ => exact h10 _
    | ⟨1, _⟩ => exact (h11 _).trans hi1.symm)
  rw [hx, hw, a0, a1]

/-- The zero offsets of the body's whole-block accesses, as a constant function. -/
theorem hz1 : (![0, 0] : Fin 2 → Nat) = fun _ => 0 := funext fun a => by fin_cases a <;> rfl

/-- The block indices at grid point `t`: the left factor's and the output's blocks are at `(t, 0)` (rows
    `5000·t … 5000·t + 4999`), the right factor's block is at `(0, 0)` (the whole matrix). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the whole product: the body multiplies rows
    `5000·t … 5000·t + 4999` of the left factor by the whole right factor, and an entry of that block product is
    the entry of the whole product in the same row of the array. -/
theorem flushed1_eq (V : (c : Dev nD) → (b : Ref sig .tc) → Buf (Elt Ideal) ((c : Thread nD τ).loc b)) (c : Dev nD) (t : Fin cfg1.N) :
    (Gen.dat1 (F := Ideal) V c).flushed 2 t
      = ((cfg1.win 2).blk t).view.read (Elt Ideal) (Cert.Gcn.matProd (V c main_v47 : FVec Ideal S100000x64 .f32) (V c main_arg5 : FVec Ideal S64x128 .f32)) := by
  show (cfg1.win 2).cut (grid1.coords t) ((Gen.dat1 V c).after 2 t) = _
  rw [Gen.after1_2]
  unfold Gen.out1_2
  rw [View.canon_unit_zero hz1]
  simp only [View.ld_unit_zero (S := S5000x64) hz1, View.ld_unit_zero (S := S64x128) hz1]
  obtain ⟨f00, f01, f10, f11, f20, f21⟩ := idx_facts1 t
  funext j
  refine block_entry1 (V c main_v47) (V c main_arg5) (Gen.iblk1 V c 0 t) (Gen.iblk1 V c 1 t)
    (fun y => ((cfg1.win 0).blk t).view.emb y) (fun y => ((cfg1.win 1).blk t).view.emb y)
    (((cfg1.win 2).blk t).view.emb j) (t.val * 5000) j
    (fun y => rfl) (fun y => rfl) (fun y => ?_) (fun y => ?_) (fun y => ?_) (fun y => ?_) ?_ ?_
  · show win1_0.index t (0 : Fin 2) * 5000 + 1 * (y 0).val = t.val * 5000 + (y 0).val
    rw [f00]; omega
  · show win1_0.index t (1 : Fin 2) * 64 + 1 * (y 1).val = (y 1).val
    rw [f01]; omega
  · show win1_1.index t (0 : Fin 2) * 64 + 1 * (y 0).val = (y 0).val
    rw [f10]; omega
  · show win1_1.index t (1 : Fin 2) * 128 + 1 * (y 1).val = (y 1).val
    rw [f11]; omega
  · show win1_2.index t (0 : Fin 2) * 5000 + 1 * (j 0).val = t.val * 5000 + (j 0).val
    rw [f20]; omega
  · show win1_2.index t (1 : Fin 2) * 128 + 1 * (j 1).val = (j 1).val
    rw [f21]; omega

/-- An index of the output array is in grid point `t`'s block exactly when each coordinate is in the block's range
    on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- The 20 blocks of 5000 rows tile the 100000 rows: row `r` is in the block of grid point `r / 5000`, and every
    grid point writes its block back. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := Gen.N_1
  obtain ⟨t, ht⟩ : ∃ t : Fin cfg1.N, t.val = (i 0).val / 5000 :=
    ⟨⟨(i 0).val / 5000, by show (i 0).val / 5000 < grid1.N; rw [hN]; omega⟩, rfl⟩
  obtain ⟨-, -, -, -, f20, f21⟩ := idx_facts1 t
  refine ⟨t, Gen.flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [f20, ht]; omega
  | ⟨1, _⟩ =>
    show win1_2.index t (1 : Fin 2) * 128 ≤ (i 1).val ∧ (i 1).val < win1_2.index t (1 : Fin 2) * 128 + 128
    rw [f21]; omega

/-- After the second dense layer's region the output array holds the whole product of the two input arrays as the
    region finds them: each grid point writes one block of it, and the blocks cover the array. -/
theorem region1_array (V : (c : Dev nD) → (b : Ref sig .tc) → Buf (Elt Ideal) ((c : Thread nD τ).loc b)) (c : Dev nD) :
    (Gen.dat1 (F := Ideal) V c).arrAt 2 cfg1.N = Cert.Gcn.matProd (V c main_v47) (V c main_arg5) :=
  (Gen.dat1 (F := Ideal) V c).arrAt_eq_of_cover 2 (Cert.Gcn.matProd (V c main_v47 : FVec Ideal S100000x64 .f32) (V c main_arg5 : FVec Ideal S64x128 .f32))
    (fun t _ => flushed1_eq V c t) cover1

end Cert.KernelIdeal.Dense

end
-- ==== Proof.KernelValue.lean ====
/-
  What the idealized kernel computes, boundary by boundary, stated in the reference's own vocabulary.

  Both programs are the same two-layer graph convolution. With the edge list e (sources and targets, a self loop
  appended for every node), deg(v) the number of edges into v, dis = deg^(-1/2) where deg > 0 and 0 elsewhere, and the
  edge weight norm(j) = dis(src j) · dis(dst j), a layer maps node features h to
      out(v) = Σ_{j : dst j = v} (h·W)(src j) · norm(j) + b,
  the first layer is followed by max(·, 0), and the result keeps the 128 rows ptr[0..127] of the second layer's output.
  The kernel computes deg, dis and norm once and its two products h·W in row blocks on the grid; the reference computes
  them per layer and whole. Everything outside the two products is the same chain of host operations applied to the
  same values, so each stretch is identified with the reference's stage by unfolding both; the products are the one
  place where the two programs differ in form, and there both are the matrix product entry by entry.

  Read in program order:  the buffers at the first region's entry hold the edge lists and norm (functions of e alone);
  the first region leaves x·W1; the next stretches leave the rectified first layer; the second region leaves its product
  with W2; the last stretch leaves the result.
-/
import proofs.«131814_j85272280695317_2_alg».proof.Proof.KernelEdges
import proofs.«131814_j85272280695317_2_alg».proof.Proof.DenseTwo
import Idealize.ShloMosaic.Lib.StableHlo.Run

set_option maxRecDepth 16384

noncomputable section

namespace Cert.KernelIdeal.GcnValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The second region's entry: the rectified first layer; the edge lists, weights and arguments kept -/

set_option maxHeartbeats 4000000 in
/-- Before rectifying: rows gathered by source, scaled by the edge weight, added by target, plus the bias. -/
theorem pre_rect : W5 m ρ c (Proc.devRef .tc main_v46)
    = Cert.ReferenceIdeal.ReadP.val_main_v46 (F := Ideal) (m ((c.tc : Thread nD τ).loc main_arg0)) (m ((c.tc : Thread nD τ).loc main_arg1)) (m ((c.tc : Thread nD τ).loc main_arg3)) (m ((c.tc : Thread nD τ).loc main_arg4)) := by
  dsimp only [W5, hostOps1]
  after_results
  rw [exit0_lin, exit0_src, exit0_dst, exit0_norm, exit0_b1]
  rfl

/-- The rectified first layer. -/
theorem entry1_h : W6 m ρ c (Proc.devRef .tc main_v47)
    = Cert.ReferenceIdeal.ReadP.val_main_v47 (F := Ideal) (m ((c.tc : Thread nD τ).loc main_arg0)) (m ((c.tc : Thread nD τ).loc main_arg1)) (m ((c.tc : Thread nD τ).loc main_arg3)) (m ((c.tc : Thread nD τ).loc main_arg4)) := by
  have h1 := pre_rect m ρ c
  dsimp only [W6]
  generalize W5 m ρ c = U at h1 ⊢
  dsimp only [hostOps1_1]; after_results
  rw [h1]
  simp only [ofBuf_toBuf, ofBuf_pre, toBuf_rect]
  rfl

theorem entry1_src : W6 m ρ c (Proc.devRef .tc main_v5) = Cert.ReferenceIdeal.ReadP.val_main_v6 (F := Ideal) (m ((c.tc : Thread nD τ).loc main_arg1)) := by
  dsimp only [W6, W5, hostOps1, hostOps1_1]; after_results; exact exit0_src m ρ c
theorem entry1_dst : W6 m ρ c (Proc.devRef .tc main_v6) = Cert.ReferenceIdeal.ReadP.val_main_v7 (F := Ideal) (m ((c.tc : Thread nD τ).loc main_arg1)) := by
  dsimp only [W6, W5, hostOps1, hostOps1_1]; after_results; exact exit0_dst m ρ c
theorem entry1_norm : W6 m ρ c (Proc.devRef .tc main_v29) = Cert.ReferenceIdeal.ReadP.val_main_v30 (F := Ideal) (m ((c.tc : Thread nD τ).loc main_arg1)) := by
  dsimp only [W6, W5, hostOps1, hostOps1_1]; after_results; exact exit0_norm m ρ c
theorem entry1_w2 : W6 m ρ c (Proc.devRef .tc main_arg5) = (m ((c.tc : Thread nD τ).loc main_arg5)) := by
  dsimp only [W6, W5, hostOps1, hostOps1_1]; after_results; exact exit0_w2 m ρ c
theorem entry1_b2 : W6 m ρ c (Proc.devRef .tc main_arg6) = (m ((c.tc : Thread nD τ).loc main_arg6)) := by
  dsimp only [W6, W5, hostOps1, hostOps1_1]; after_results; exact exit0_b2 m ρ c
theorem entry1_ptr : W6 m ρ c (Proc.devRef .tc main_arg2) = (m ((c.tc : Thread nD τ).loc main_arg2)) := by
  dsimp only [W6, W5, hostOps1, hostOps1_1]; after_results; exact exit0_ptr m ρ c

/-! ## The second dense layer -/

/-- After the second region its output array holds the product of the rectified first layer with W2. -/
theorem exit1_lin : W7 m ρ c (Proc.devRef .tc main_v48)
    = Cert.ReferenceIdeal.ReadP.val_main_v48 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) := by
  refine (W7_arr m ρ c 2).trans ?_
  rw [Cert.KernelIdeal.Dense.region1_array, Cert.ReferenceIdeal.Dense.dense_two]
  show Cert.Gcn.matProd (W6 m ρ c (Proc.devRef .tc main_v47)) (W6 m ρ c (Proc.devRef .tc main_arg5)) = _
  rw [entry1_h, entry1_w2]

theorem exit1_src : W7 m ρ c (Proc.devRef .tc main_v5) = Cert.ReferenceIdeal.ReadP.val_main_v6 (F := Ideal) (m ((c.tc : Thread nD τ).loc main_arg1)) :=
  (W7_of_ne m ρ c main_v5 (by decide)).trans (entry1_src m ρ c)
theorem exit1_dst : W7 m ρ c (Proc.devRef .tc main_v6) = Cert.ReferenceIdeal.ReadP.val_main_v7 (F := Ideal) (m ((c.tc : Thread nD τ).loc main_arg1)) :=
  (W7_of_ne m ρ c main_v6 (by decide)).trans (entry1_dst m ρ c)
theorem exit1_norm : W7 m ρ c (Proc.devRef .tc main_v29) = Cert.ReferenceIdeal.ReadP.val_main_v30 (F := Ideal) (m ((c.tc : Thread nD τ).loc main_arg1)) :=
  (W7_of_ne m ρ c main_v29 (by decide)).trans (entry1_norm m ρ c)
theorem exit1_b2 : W7 m ρ c (Proc.devRef .tc main_arg6) = (m ((c.tc : Thread nD τ).loc main_arg6)) :=
  (W7_of_ne m ρ c main_arg6 (by decide)).trans (entry1_b2 m ρ c)
theorem exit1_ptr : W7 m ρ c (Proc.devRef .tc main_arg2) = (m ((c.tc : Thread nD τ).loc main_arg2)) :=
  (W7_of_ne m ρ c main_arg2 (by decide)).trans (entry1_ptr m ρ c)

/-! ## The result -/

set_option maxHeartbeats 4000000 in
/-- The last boundary's contents at the result buffer: the second layer's aggregation plus bias, its 128 central rows —
    the reference's last stage, of the arguments as launched. -/
theorem result : W8 m ρ c (Proc.devRef .tc main_v72)
    = Cert.ReferenceIdeal.ReadP.val_main_v98 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  dsimp only [W8, hostOps2]
  after_results
  rw [exit1_lin, exit1_src, exit1_dst, exit1_norm, exit1_b2, exit1_ptr]
  rfl

end Cert.KernelIdeal.GcnValue

end
-- ==== Proof.lean ====
/-
  The idealized kernel and the idealized reference compute the same 128×128 array over the extended reals.

  Both are a two-layer graph convolution: a layer sends node features h to Σ over the edges into a node (a self loop
  appended for every node) of (h·W)(source) times the edge weight deg(source)^(-1/2)·deg(target)^(-1/2), plus a bias;
  the first layer is rectified, and the result is the second layer's output at the 128 rows the pointer array names.
  The kernel computes the edge weights once and each product h·W on the grid, 5000 rows at a time, rounding its
  factors to bf16 on the way in — the identity over the extended reals; the reference computes the weights per layer
  and each product whole. Every other operation is the same host operation applied to the same values.

  So the proof has one mathematical step: a row block of the product is the same finite sum Σ_l h(r,l)·W(l,q), entry by
  entry, as the whole product's (Proof/DenseOne.lean, Proof/DenseTwo.lean for the kernel's two regions; Proof/RefDense.lean
  for the reference's two dot_generals); no law beyond that is used, in particular none that needs finite inputs. The
  rest is bookkeeping: the kernel's run names its result (Proof/KernelRun.lean), the result is read back boundary by
  boundary in the reference's own stages (Proof/KernelValue.lean), and the reference's run states the same last stage.
  The three frames are the generated ones; the idealization rewrote nothing, so there is nothing to preserve.
-/
import proofs.«131814_j85272280695317_2_alg».proof.Defs
import proofs.«131814_j85272280695317_2_alg».proof.Proof.Gen.Kernel
import proofs.«131814_j85272280695317_2_alg».proof.Proof.Gen.Kernel.Skeleton
import proofs.«131814_j85272280695317_2_alg».proof.Proof.Gen.Kernel.Launch
import proofs.«131814_j85272280695317_2_alg».proof.Proof.Gen.Kernel.Points
import proofs.«131814_j85272280695317_2_alg».proof.Proof.Gen.Kernel.Frame
import proofs.«131814_j85272280695317_2_alg».proof.Proof.Gen.KernelIdeal
import proofs.«131814_j85272280695317_2_alg».proof.Proof.Gen.KernelIdeal.Skeleton
import proofs.«131814_j85272280695317_2_alg».proof.Proof.Gen.KernelIdeal.Launch
import proofs.«131814_j85272280695317_2_alg».proof.Proof.Gen.KernelIdeal.Points
import proofs.«131814_j85272280695317_2_alg».proof.Proof.Gen.KernelIdeal.Frame
import proofs.«131814_j85272280695317_2_alg».proof.Proof.Gen.ReferenceIdeal
import proofs.«131814_j85272280695317_2_alg».proof.Proof.Gen.Pre_finite_inputs
import proofs.«131814_j85272280695317_2_alg».proof.Proof.RefRun
import proofs.«131814_j85272280695317_2_alg».proof.Proof.RefRead
import proofs.«131814_j85272280695317_2_alg».proof.Proof.KernelRun
import proofs.«131814_j85272280695317_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end, with the result at the reference's last stage of the (agreeing) arguments. -/
theorem algebraic : Cert.algebraic_KernelIdeal_ReferenceIdeal := by
  intro m ρ m' ρ' _ hagree
  refine ⟨fun c => Cert.ReferenceIdeal.ReadP.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.GcnValue.result m ρ c), (h c).2⟩)
      (Cert.KernelIdeal.GcnRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v98_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
